-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S131072x256 : Shape := ⟨2, ![131072, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_

variable [Facts]

def fn {F : FTy → Type} [FloatOps F] (main_arg0 : FVec F S2048x256 .f32) (main_arg1 : FVec F S131072x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S2048x256 : Shape := ⟨2, ![2048, 256]⟩
abbrev S131072x256 : Shape := ⟨2, ![131072, 256]⟩
abbrev S1024x256 : Shape := ⟨2, ![1024, 256]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S131072x256, .f32⟩
  | .hbm, ⟨2, _⟩ => ⟨S131072x256, .bf16⟩
  | .hbm, ⟨3, _⟩ => ⟨S2048x256, .f32⟩
  | .local _ .vmem, ⟨0, _⟩ => ⟨S1024x256, .f32⟩
  | .local _ .vmem, ⟨1, _⟩ => ⟨S1024x256, .f32⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .f32 = 32 ∨ (Rect.block (s := S2048x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .bf16 = 32 ∨ (Rect.block (s := S131072x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S2048x256.size a
  hwx0_2 : ∀ i : grid0.Coords, EltTy.bits .f32 = 32 ∨ (Rect.block (s := S2048x256) S1024x256.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x256 : Shape := ⟨2, ![2048, 256]⟩
abbrev S131072x256 : Shape := ⟨2, ![131072, 256]⟩
abbrev S2048x131072 : Shape := ⟨2, ![2048, 131072]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S131072x256, .f32⟩
  | .hbm, ⟨2, _⟩ => ⟨S2048x131072, .f32⟩
  | .hbm, ⟨3, _⟩ => ⟨S_, .f32⟩
  | .hbm, ⟨4, _⟩ => ⟨S2048x131072, .f32⟩
  | .hbm, ⟨5, _⟩ => ⟨S2048x131072, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x131072, .f32⟩
  | .hbm, ⟨13, _⟩ => ⟨S2048x131072, .f32⟩
  | .hbm, ⟨14, _⟩ => ⟨S2048x131072, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x131072, .f32⟩
  | .hbm, ⟨19, _⟩ => ⟨S2048x131072, .f32⟩
  | .hbm, ⟨20, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S2048x131072 : S_.BroadcastsInDim S2048x131072 (![] : Fin 0 → Fin S2048x131072.rank)
  reducesTo_S2048x131072_S2048_d1 : S2048x131072.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x131072_0_1 : S2048x1.BroadcastsInDim S2048x131072 (![0, 1] : Fin 2 → Fin S2048x131072.rank)
  dot_S2048x256_S131072x256_S2048x131072_1_1_0_0_n_n_wf : DotDims.WF S2048x256 S131072x256 S2048x131072 [1] [1] [0] [0] [] []
  dot_S2048x131072_S131072x256_S2048x256_1_0_0_1_n_n_wf : DotDims.WF S2048x131072 S131072x256 S2048x256 [1] [0] [0] [1] [] []

variable [Facts₀]

def dot_S2048x256_S131072x256_S2048x131072_1_1_0_0_n_n : DotDims S2048x256 S131072x256 S2048x131072 where
  lhsContracting := [1]
  rhsContracting := [1]
  lhsNonContracting := [0]
  rhsNonContracting := [0]
  lhsBatch := []
  rhsBatch := []
  wf := dot_S2048x256_S131072x256_S2048x131072_1_1_0_0_n_n_wf
def dot_S2048x131072_S131072x256_S2048x256_1_0_0_1_n_n : DotDims S2048x131072 S131072x256 S2048x256 where
  lhsContracting := [1]
  rhsContracting := [0]
  lhsNonContracting := [0]
  rhsNonContracting := [1]
  lhsBatch := []
  rhsBatch := []
  wf := dot_S2048x131072_S131072x256_S2048x256_1_0_0_1_n_n_wf

class Facts : Prop extends Facts₀ where

variable [Facts]
-- ==== Proof.Pieces.lean ====
/-
  What one run of the kernel body leaves in its carried buffers and in the output block, as values.

  The body stores each carried buffer whole, so what a buffer holds afterwards is the stored value itself; a value
  loaded back from a buffer the body has already stored is the stored value, and a value loaded from a buffer it has
  not yet stored is what the buffer held on entry. Three cases by the tile's position in the sweep:
  at the FIRST tile the body first resets the buffers (to `-∞`, `0`, `0`) and updates from those; at a MIDDLE tile it
  updates from what the tile before left; at the LAST tile it does the same and then stores the quotient of the new
  numerator by the new denominator into the output block.
-/
import proofs.«153064_j9929964388694_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile: the running maximum, updated from the reset value. -/
theorem sout_A_0 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : cond0_0 i) (hc1 : ¬cond0_1 i)
    (x0 : Vec F S1024x256 .f32) (x1 : Vec F S2048x256 .bf16) :
    sout0_A_0 c i arg2 harg2 arg3 harg3 arg4 harg4 arg5 harg5 arg6 harg6 arg7 harg7 hc0 hc1 x0 x1 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- First tile: the running denominator, updated from the reset values. -/
theorem sout_A_1 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : cond0_0 i) (hc1 : ¬cond0_1 i)
    (x0 : Vec F S1024x256 .f32) (x1 : Vec F S2048x256 .bf16) :
    sout0_A_1 c i arg2 harg2 arg3 harg3 arg4 harg4 arg5 harg5 arg6 harg6 arg7 harg7 hc0 hc1 x0 x1 = k0_pay12 x0 x1 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- First tile: the running numerator, updated from the reset values. -/
theorem sout_A_2 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : cond0_0 i) (hc1 : ¬cond0_1 i)
    (x0 : Vec F S1024x256 .f32) (x1 : Vec F S2048x256 .bf16) :
    sout0_A_2 c i arg2 harg2 arg3 harg3 arg4 harg4 arg5 harg5 arg6 harg6 arg7 harg7 hc0 hc1 x0 x1 = k0_pay1 (k0_pay13 x0 x1 k0_pay4 k0_pay6) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1024x256) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Middle tile: the running maximum. -/
theorem sout_B_0 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : ¬cond0_1 i)
    (x0 : Vec F S1024x256 .f32) (x1 : Vec F S2048x256 .bf16) (xs0 : Vec F S1024x1 .f32) (xs1 : Vec F S1024x1 .f32) (xs2 : Vec F S1024x256 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Middle tile: the running denominator. -/
theorem sout_B_1 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : ¬cond0_1 i)
    (x0 : Vec F S1024x256 .f32) (x1 : Vec F S2048x256 .bf16) (xs0 : Vec F S1024x1 .f32) (xs1 : Vec F S1024x1 .f32) (xs2 : Vec F S1024x256 .f32) :
    sout0_B_1 c i arg2 harg2 arg3 harg3 arg4 harg4 arg5 harg5 arg6 harg6 arg7 harg7 hc0 hc1 x0 x1 xs0 xs1 xs2 = k0_pay12 x0 x1 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Middle tile: the running numerator. -/
theorem sout_B_2 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : ¬cond0_1 i)
    (x0 : Vec F S1024x256 .f32) (x1 : Vec F S2048x256 .bf16) (xs0 : Vec F S1024x1 .f32) (xs1 : Vec F S1024x1 .f32) (xs2 : Vec F S1024x256 .f32) :
    sout0_B_2 c i arg2 harg2 arg3 harg3 arg4 harg4 arg5 harg5 arg6 harg6 arg7 harg7 hc0 hc1 x0 x1 xs0 xs1 xs2 = k0_pay1 (k0_pay13 x0 x1 xs0 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x256) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Last tile: the running maximum. -/
theorem sout_C_0 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : cond0_1 i)
    (x0 : Vec F S1024x256 .f32) (x1 : Vec F S2048x256 .bf16) (xs0 : Vec F S1024x1 .f32) (xs1 : Vec F S1024x1 .f32) (xs2 : Vec F S1024x256 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Last tile: the running denominator. -/
theorem sout_C_1 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : cond0_1 i)
    (x0 : Vec F S1024x256 .f32) (x1 : Vec F S2048x256 .bf16) (xs0 : Vec F S1024x1 .f32) (xs1 : Vec F S1024x1 .f32) (xs2 : Vec F S1024x256 .f32) :
    sout0_C_1 c i arg2 harg2 arg3 harg3 arg4 harg4 arg5 harg5 arg6 harg6 arg7 harg7 hc0 hc1 x0 x1 xs0 xs1 xs2 = k0_pay12 x0 x1 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x1) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Last tile: the running numerator. -/
theorem sout_C_2 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : cond0_1 i)
    (x0 : Vec F S1024x256 .f32) (x1 : Vec F S2048x256 .bf16) (xs0 : Vec F S1024x1 .f32) (xs1 : Vec F S1024x1 .f32) (xs2 : Vec F S1024x256 .f32) :
    sout0_C_2 c i arg2 harg2 arg3 harg3 arg4 harg4 arg5 harg5 arg6 harg6 arg7 harg7 hc0 hc1 x0 x1 xs0 xs1 xs2 = k0_pay1 (k0_pay13 x0 x1 xs0 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x256) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

/-- Last tile: the output block, the new numerator over the new denominator. -/
theorem out_C_2 (c : Dev nD) (i : grid0.Coords) (arg2 : Memref sig .tc .vmem S1024x256 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (hc0 : ¬cond0_0 i) (hc1 : cond0_1 i)
    (x0 : Vec F S1024x256 .f32) (x1 : Vec F S2048x256 .bf16) (xs0 : Vec F S1024x1 .f32) (xs1 : Vec F S1024x1 .f32) (xs2 : Vec F S1024x256 .f32) :
    out0_C_2 c i arg2 harg2 arg3 harg3 arg4 harg4 arg5 harg5 arg6 harg6 arg7 harg7 hc0 hc1 x0 x1 xs0 xs1 xs2 = k0_pay3 (k0_pay1 (k0_pay13 x0 x1 xs0 xs2)) (k0_pay12 x0 x1 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x256) hz]
  simp only [View.readCov_unit_zero (S := S1024x1) _ hz, View.readCov_unit_zero (S := S1024x256) _ hz, View.readAt_eq_ld,
    harg2.read_unread, harg3.read_unread, harg5.read_unread, harg6.read_unread, harg7.read_unread,
    View.ld_unit_zero (S := S1024x256) hz, View.ld_unit_zero (S := S2048x256) hz, View.ld_unit_zero (S := S1024x1) hz]

end Cert.KernelIdeal.Pieces

end
-- ==== Proof.Layout.lean ====
/-
  Two layout operations of a row-wise reduction kept as a column, read at an index given by coordinates: a vector
  of length `a` cast to an `a × 1` column, and an `a × 1` column broadcast along its unit axis to `a × b`.
  Row-major position `i * 1 + 0 = i` gives the first; a broadcast reads a unit axis at coordinate `0` and any
  other axis at the result's coordinate, which gives the second.
-/
import Idealize.ShloMosaic.Lib.Pipeline.Value
import Idealize.ShloMosaic.Lib.ValueIdx

namespace Cert.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Layout
-- ==== Proof.Payload.lean ====
/-
  The kernel body's arithmetic, read entry by entry on the extended reals.

  One grid point holds a block `x` of 1024 query rows and a tile `s` of 2048 stored rows, and carries per query row a
  running maximum `m`, a running denominator `l` and, per column, a running numerator `acc`. With
  `sc r t = (∑ k, x r k * s t k) * 1` the tile's scores, the body computes

      m' r     = max (m r) (max over t of sc r t, folded from -∞)
      a r      = exp (m r - m' r)
      p r t    = exp (sc r t - m' r)
      l' r     = a r * l r + ∑ t, p r t
      acc' r d = a r * acc r d + ∑ t, p r t * s t d

  and, at the last tile, the result `acc' r d / l' r`. Each line below is one of the body's named values at an index
  given by coordinates; the matrix products are contractions over one axis, the two row reductions run over the
  tile's 2048 positions, and a row quantity kept as a 1024 × 1 column is read at its row.
-/
import proofs.«153064_j9929964388694_2_alg».proof.Proof.Gen.KernelIdeal.Skeleton
import proofs.«153064_j9929964388694_2_alg».proof.Proof.Layout
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The contraction of the scores (queries against the tile, both over their 256 columns) and of the weighted sum
    (weights against the tile, over its 2048 rows). -/
abbrev D1 : DotDims S1024x256 S2048x256 S1024x2048 := dot_S1024x256_S2048x256_S1024x2048_1_1_0_0_n_n
abbrev D2 : DotDims S1024x2048 S2048x256 S1024x256 := dot_S1024x2048_S2048x256_S1024x256_1_0_0_1_n_n

theorem d1_lhs0 (i : S1024x2048.Idx) (q : D1.contr.Idx) : (D1.lhsIdx i q 0).val = (i 0).val := by
  unfold DotDims.lhsIdx
  rw [dif_neg (show ¬(0 : Fin S1024x256.rank) ∈ D1.lhsBatch by decide), dif_pos (show (0 : Fin S1024x256.rank) ∈ D1.lhsNonContracting by decide)]
  rfl
theorem d1_lhs1 (i : S1024x2048.Idx) (q : D1.contr.Idx) : (D1.lhsIdx i q 1).val = (q ⟨0, by decide⟩).val :=
  D1.lhsIdx_val_of_single rfl i q
theorem d1_rhs0 (i : S1024x2048.Idx) (q : D1.contr.Idx) : (D1.rhsIdx i q 0).val = (i 1).val := by
  unfold DotDims.rhsIdx
  rw [dif_neg (show ¬(0 : Fin S2048x256.rank) ∈ D1.rhsBatch by decide), dif_pos (show (0 : Fin S2048x256.rank) ∈ D1.rhsNonContracting by decide)]
  rfl
theorem d1_rhs1 (i : S1024x2048.Idx) (q : D1.contr.Idx) : (D1.rhsIdx i q 1).val = (q ⟨0, by decide⟩).val :=
  D1.rhsIdx_val_of_single rfl i q

theorem d2_lhs0 (i : S1024x256.Idx) (q : D2.contr.Idx) : (D2.lhsIdx i q 0).val = (i 0).val := by
  unfold DotDims.lhsIdx
  rw [dif_neg (show ¬(0 : Fin S1024x2048.rank) ∈ D2.lhsBatch by decide), dif_pos (show (0 : Fin S1024x2048.rank) ∈ D2.lhsNonContracting by decide)]
  rfl
theorem d2_lhs1 (i : S1024x256.Idx) (q : D2.contr.Idx) : (D2.lhsIdx i q 1).val = (q ⟨0, by decide⟩).val :=
  D2.lhsIdx_val_of_single rfl i q
theorem d2_rhs0 (i : S1024x256.Idx) (q : D2.contr.Idx) : (D2.rhsIdx i q 0).val = (q ⟨0, by decide⟩).val :=
  D2.rhsIdx_val_of_single rfl i q
theorem d2_rhs1 (i : S1024x256.Idx) (q : D2.contr.Idx) : (D2.rhsIdx i q 1).val = (i 1).val := by
  unfold DotDims.rhsIdx
  rw [dif_neg (show ¬(1 : Fin S2048x256.rank) ∈ D2.rhsBatch by decide), dif_pos (show (1 : Fin S2048x256.rank) ∈ D2.rhsNonContracting by decide)]
  rfl

/-- The score product into a zero accumulator, at `(r, t)`: the inner product of query row `r` and tile row `t`. -/
theorem matmul1_apply (l : FVec Ideal S1024x256 .bf16) (rr : FVec Ideal S2048x256 .bf16) (r : Fin 1024) (t : Fin 2048) :
    FloatOps.matmul D1 none l rr (constant (F := Ideal) S1024x2048 .f32 0x00000000#32) (ix2 r t)
      = ∑ k : Fin 256, (l (ix2 r k) : EReal) * (rr (ix2 t k) : EReal) := by
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 r t) ((contrEquiv1 D1 256 rfl rfl).symm k) = ix2 r k := funext fun a => Fin.ext (by
    match a with
    | ⟨0, _⟩ => exact d1_lhs0 _ _
    | ⟨1, _⟩ => exact (d1_lhs1 _ _).trans hk)
  have er : D1.rhsIdx (ix2 r t) ((contrEquiv1 D1 256 rfl rfl).symm k) = ix2 t k := funext fun a => Fin.ext (by
    match a with
    | ⟨0, _⟩ => exact d1_rhs0 _ _
    | ⟨1, _⟩ => exact (d1_rhs1 _ _).trans hk)
  rw [el, er]

/-- The weighted sum into a zero accumulator, at `(r, d)`: over the tile's rows `t`, weight `(r, t)` times entry `(t, d)`. -/
theorem matmul2_apply (l : FVec Ideal S1024x2048 .bf16) (rr : FVec Ideal S2048x256 .bf16) (r : Fin 1024) (d : Fin 256) :
    FloatOps.matmul D2 none l rr (constant (F := Ideal) S1024x256 .f32 0x00000000#32) (ix2 r d)
      = ∑ t : Fin 2048, (l (ix2 r t) : EReal) * (rr (ix2 t d) : EReal) := by
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 r d) ((contrEquiv1 D2 2048 rfl rfl).symm k) = ix2 r k := funext fun a => Fin.ext (by
    match a with
    | ⟨0, _⟩ => exact d2_lhs0 _ _
    | ⟨1, _⟩ => exact (d2_lhs1 _ _).trans hk)
  have er : D2.rhsIdx (ix2 r d) ((contrEquiv1 D2 2048 rfl rfl).symm k) = ix2 k d := funext fun a => Fin.ext (by
    match a with
    | ⟨0, _⟩ => exact (d2_rhs0 _ _).trans hk
    | ⟨1, _⟩ => exact d2_rhs1 _ _)
  rw [el, er]

/-- The tile's scores: the inner product, times the scale `1.0`. -/
theorem pay8_apply (x0 : FVec Ideal S1024x256 .f32) (x1 : FVec Ideal S2048x256 .bf16) (r : Fin 1024) (t : Fin 2048) :
    k0_pay8 (F := Ideal) x0 x1 (ix2 r t)
      = (∑ k : Fin 256, (x0 (ix2 r k) : EReal) * (x1 (ix2 t k) : EReal)) * Ideal.ofBits .f32 0x3F800000#32 := by
  unfold k0_pay8 k0_pay7
  try dsimp only
  rw [shapeCast_self]
  exact congrArg (· * Ideal.ofBits .f32 0x3F800000#32) (matmul1_apply (truncf .bf16 x0 bitsLt_bf16_f32) x1 r t)

/-- The row maximum of a 1024 × 2048 array kept as a column, at row `r`: the fold of `max` from `-∞` over the row. -/
theorem rowmax_apply (src : FVec Ideal S1024x2048 .f32) (r : Fin 1024) (u : Fin 1) :
    shapeCast S1024x1 (multiReduction (F := Ideal) .maximumf [1] S1024 src 0xFF800000#32 reduces_S1024x2048_S1024 (.inl rfl) rfl) shapeCasts_S1024_S1024x1 (ix2 r u)
      = (Finset.univ : Finset (Fin 2048)).fold max (Ideal.ofBits .f32 0xFF800000#32) (fun t => src (ix2 r t)) := by
  refine (Cert.Layout.shapeCast_a_a1_apply _ _ r u).trans ?_
  refine (Ideal.multiReduction_maximumf_single src 0xFF800000#32 reduces_S1024x2048_S1024 (.inl rfl) rfl (ix1 r)).trans ?_
  refine congrArg (fun f => (Finset.univ : Finset (Fin 2048)).fold max (Ideal.ofBits .f32 0xFF800000#32) f) (funext fun t => ?_)
  exact congrArg src (funext fun a => Fin.ext (by match a with | ⟨0, _⟩ => rfl | ⟨1, _⟩ => rfl))

/-- The row sum of a 1024 × 2048 array kept as a column, at row `r`. -/
theorem rowsum_apply (src : FVec Ideal S1024x2048 .f32) (r : Fin 1024) (u : Fin 1) :
    shapeCast S1024x1 (multiReduction (F := Ideal) .add [1] S1024 src 0x00000000#32 reduces_S1024x2048_S1024 (.inl rfl) rfl) shapeCasts_S1024_S1024x1 (ix2 r u)
      = ∑ t : Fin 2048, src (ix2 r t) := by
  refine (Cert.Layout.shapeCast_a_a1_apply _ _ r u).trans ?_
  refine (Ideal.multiReduction_add_single src 0x00000000#32 reduces_S1024x2048_S1024 (.inl rfl) rfl (ix1 r)).trans ?_
  refine Finset.sum_congr rfl fun t _ => ?_
  exact congrArg src (funext fun a => Fin.ext (by match a with | ⟨0, _⟩ => rfl | ⟨1, _⟩ => rfl))

/-- The new running maximum of row `r`. -/
theorem pay9_apply (x0 : FVec Ideal S1024x256 .f32) (x1 : FVec Ideal S2048x256 .bf16) (m : FVec Ideal S1024x1 .f32) (r : Fin 1024) (u : Fin 1) :
    k0_pay9 (F := Ideal) x0 x1 m (ix2 r u)
      = max (m (ix2 r u)) ((Finset.univ : Finset (Fin 2048)).fold max (Ideal.ofBits .f32 0xFF800000#32) (fun t => k0_pay8 (F := Ideal) x0 x1 (ix2 r t))) := by
  unfold k0_pay9
  try dsimp only
  rw [maximumf_apply]
  exact congrArg (max (m (ix2 r u))) (rowmax_apply (k0_pay8 (F := Ideal) x0 x1) r u)

/-- The rescale factor of row `r`. -/
theorem pay10_apply (x0 : FVec Ideal S1024x256 .f32) (x1 : FVec Ideal S2048x256 .bf16) (m : FVec Ideal S1024x1 .f32) (r : Fin 1024) (u : Fin 1) :
    k0_pay10 (F := Ideal) x0 x1 m (ix2 r u) = Ideal.exp (m (ix2 r u) - k0_pay9 (F := Ideal) x0 x1 m (ix2 r u)) := rfl

/-- The tile's weights. -/
theorem pay11_apply (x0 : FVec Ideal S1024x256 .f32) (x1 : FVec Ideal S2048x256 .bf16) (m : FVec Ideal S1024x1 .f32) (r : Fin 1024) (t : Fin 2048) :
    k0_pay11 (F := Ideal) x0 x1 m (ix2 r t)
      = Ideal.exp (k0_pay8 (F := Ideal) x0 x1 (ix2 r t) - k0_pay9 (F := Ideal) x0 x1 m (ix2 r (0 : Fin 1))) := by
  unfold k0_pay11
  try dsimp only
  show Ideal.exp (k0_pay8 (F := Ideal) x0 x1 (ix2 r t) - broadcastTo S1024x2048 (k0_pay9 (F := Ideal) x0 x1 m) broadcasts_S1024x1_S1024x2048 (ix2 r t)) = _
  rw [Cert.Layout.broadcastTo_a1_ab_apply]

/-- The new running denominator of row `r`. -/
theorem pay12_apply (x0 : FVec Ideal S1024x256 .f32) (x1 : FVec Ideal S2048x256 .bf16) (m l : FVec Ideal S1024x1 .f32) (r : Fin 1024) (u : Fin 1) :
    k0_pay12 (F := Ideal) x0 x1 m l (ix2 r u)
      = k0_pay10 (F := Ideal) x0 x1 m (ix2 r u) * l (ix2 r u) + ∑ t : Fin 2048, k0_pay11 (F := Ideal) x0 x1 m (ix2 r t) := by
  unfold k0_pay12
  try dsimp only
  rw [shapeCast_self, addf_apply, mulf_apply]
  exact congrArg (k0_pay10 (F := Ideal) x0 x1 m (ix2 r u) * l (ix2 r u) + ·) (rowsum_apply (k0_pay11 (F := Ideal) x0 x1 m) r u)

/-- The new running numerator of row `r`, column `d`. -/
theorem pay13_apply (x0 : FVec Ideal S1024x256 .f32) (x1 : FVec Ideal S2048x256 .bf16) (m : FVec Ideal S1024x1 .f32) (acc : FVec Ideal S1024x256 .f32) (r : Fin 1024) (d : Fin 256) :
    k0_pay13 (F := Ideal) x0 x1 m acc (ix2 r d)
      = k0_pay10 (F := Ideal) x0 x1 m (ix2 r (0 : Fin 1)) * acc (ix2 r d)
        + ∑ t : Fin 2048, (k0_pay11 (F := Ideal) x0 x1 m (ix2 r t) : EReal) * (x1 (ix2 t d) : EReal) := by
  unfold k0_pay13 k0_pay7
  try dsimp only
  rw [shapeCast_self, addf_apply, mulf_apply, Cert.Layout.broadcastTo_a1_ab_apply]
  exact congrArg (k0_pay10 (F := Ideal) x0 x1 m (ix2 r (0 : Fin 1)) * acc (ix2 r d) + ·)
    (matmul2_apply (truncf .bf16 (k0_pay11 (F := Ideal) x0 x1 m) bitsLt_bf16_f32) x1 r d)

/-- The result at the last tile: numerator over denominator. -/
theorem pay3_apply (acc : FVec Ideal S1024x256 .f32) (l : FVec Ideal S1024x1 .f32) (r : Fin 1024) (d : Fin 256) :
    k0_pay3 (F := Ideal) acc l (ix2 r d) = Ideal.div (acc (ix2 r d)) (l (ix2 r (0 : Fin 1))) := by
  unfold k0_pay3
  try dsimp only
  rw [divf_apply, Cert.Layout.broadcastTo_a1_ab_apply]

/-- The three reset values: `-∞`, `0`, `0`. -/
theorem pay4_apply (i : S1024x1.Idx) : k0_pay4 (F := Ideal) i = Ideal.ofBits .f32 0xFF800000#32 := by
  unfold k0_pay4; (try dsimp only); rw [shapeCast_self]; rfl
theorem pay5_apply (i : S1024x1.Idx) : k0_pay5 (F := Ideal) i = Ideal.ofBits .f32 0x00000000#32 := by
  unfold k0_pay5; (try dsimp only); rw [shapeCast_self]; rfl
theorem pay6_apply (i : S1024x256.Idx) : k0_pay6 (F := Ideal) i = Ideal.ofBits .f32 0x00000000#32 := by
  unfold k0_pay6; (try dsimp only); rw [shapeCast_self]; rfl

/-- The two stores of the running values pass them through a cast between equal shapes. -/
theorem pay1_eq (v : FVec Ideal S1024x256 .f32) : k0_pay1 (F := Ideal) v = v := by
  unfold k0_pay1; (try dsimp only); rw [shapeCast_self]
theorem pay2_eq (v : FVec Ideal S1024x1 .f32) : k0_pay2 (F := Ideal) v = v := by
  unfold k0_pay2; (try dsimp only); rw [shapeCast_self]

end Cert.KernelIdeal.Payload

end
-- ==== Proof.Components.lean ====
/-
  What the carried buffers and the output block hold after a grid point, as the body's arithmetic of the point's two
  input blocks and — except at the first tile of a sweep, which starts from the reset values `-∞`, `0`, `0` — of what
  the point before left. One equation per buffer and per position of the tile in the sweep (first, middle, last).
-/
import proofs.«153064_j9929964388694_2_alg».proof.Proof.Pieces
import proofs.«153064_j9929964388694_2_alg».proof.Proof.Payload

noncomputable section

open Idealize.ShloMosaic Idealize.ShloMosaic.TcCoe Idealize.SL.Sem

namespace Cert.KernelIdeal.Components

open Cert.KernelIdeal Cert.KernelIdeal.Gen

variable (m : (ℓ : Loc nD τ sig) → Buf (Elt Ideal) ℓ)

/-- First tile: the running maximum after the point. -/
theorem m_first (c : Dev nD) (t : Fin cfg0.N) (h0 : t.val % 64 = 0) (h1 : ¬t.val % 64 = 63) :
    (outsAt0 m c t.val t.isLt).2.1 = k0_pay9 (F := Ideal) (iblk m c 0 t) (iblk m c 1 t) (k0_pay4 (F := Ideal)) := by
  rw [outsAt0_A m c t h0 h1]
  dsimp only
  exact (Pieces.sout_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans (Payload.pay2_eq _)

/-- First tile: the running denominator after the point. -/
theorem l_first (c : Dev nD) (t : Fin cfg0.N) (h0 : t.val % 64 = 0) (h1 : ¬t.val % 64 = 63) :
    (outsAt0 m c t.val t.isLt).2.2.1 = k0_pay12 (F := Ideal) (iblk m c 0 t) (iblk m c 1 t) (k0_pay4 (F := Ideal)) (k0_pay5 (F := Ideal)) := by
  rw [outsAt0_A m c t h0 h1]
  dsimp only
  exact (Pieces.sout_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))

/-- First tile: the running numerator after the point. -/
theorem a_first (c : Dev nD) (t : Fin cfg0.N) (h0 : t.val % 64 = 0) (h1 : ¬t.val % 64 = 63) :
    (outsAt0 m c t.val t.isLt).2.2.2 = k0_pay13 (F := Ideal) (iblk m c 0 t) (iblk m c 1 t) (k0_pay4 (F := Ideal)) (k0_pay6 (F := Ideal)) := by
  rw [outsAt0_A m c t h0 h1]
  dsimp only
  exact (Pieces.sout_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans (Payload.pay1_eq _)

/-- Middle tile: the running maximum, from what the point before left. -/
theorem m_mid (c : Dev nD) (t : Fin cfg0.N) (h0 : ¬t.val % 64 = 0) (h1 : ¬t.val % 64 = 63) :
    (outsAt0 m c t.val t.isLt).2.1 = k0_pay9 (F := Ideal) (iblk m c 0 t) (iblk m c 1 t) (outsAt0 m c (t.val - 1) (Nat.lt_of_le_of_lt (Nat.sub_le _ _) t.isLt)).2.1 := by
  rw [outsAt0_B m c t h0 h1]
  dsimp only
  exact (Pieces.sout_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (Payload.pay2_eq _)

/-- Middle tile: the running denominator. -/
theorem l_mid (c : Dev nD) (t : Fin cfg0.N) (h0 : ¬t.val % 64 = 0) (h1 : ¬t.val % 64 = 63) :
    (outsAt0 m c t.val t.isLt).2.2.1 = k0_pay12 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_B m c t h0 h1]
  dsimp only
  exact (Pieces.sout_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-- Middle tile: the running numerator. -/
theorem a_mid (c : Dev nD) (t : Fin cfg0.N) (h0 : ¬t.val % 64 = 0) (h1 : ¬t.val % 64 = 63) :
    (outsAt0 m c t.val t.isLt).2.2.2 = k0_pay13 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_B m c t h0 h1]
  dsimp only
  exact (Pieces.sout_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (Payload.pay1_eq _)

/-- Last tile: the running maximum. -/
theorem m_last (c : Dev nD) (t : Fin cfg0.N) (h0 : ¬t.val % 64 = 0) (h1 : t.val % 64 = 63) :
    (outsAt0 m c t.val t.isLt).2.1 = k0_pay9 (F := Ideal) (iblk m c 0 t) (iblk m c 1 t) (outsAt0 m c (t.val - 1) (Nat.lt_of_le_of_lt (Nat.sub_le _ _) t.isLt)).2.1 := by
  rw [outsAt0_C m c t h0 h1]
  dsimp only
  exact (Pieces.sout_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (Payload.pay2_eq _)

/-- Last tile: the running denominator. -/
theorem l_last (c : Dev nD) (t : Fin cfg0.N) (h0 : ¬t.val % 64 = 0) (h1 : t.val % 64 = 63) :
    (outsAt0 m c t.val t.isLt).2.2.1 = k0_pay12 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_C m c t h0 h1]
  dsimp only
  exact (Pieces.sout_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-- Last tile: the running numerator. -/
theorem a_last (c : Dev nD) (t : Fin cfg0.N) (h0 : ¬t.val % 64 = 0) (h1 : t.val % 64 = 63) :
    (outsAt0 m c t.val t.isLt).2.2.2 = k0_pay13 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_C m c t h0 h1]
  dsimp only
  exact (Pieces.sout_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (Payload.pay1_eq _)

/-- Last tile: the output block. -/
theorem o_last (c : Dev nD) (t : Fin cfg0.N) (h0 : ¬t.val % 64 = 0) (h1 : t.val % 64 = 63) :
    (outsAt0 m c t.val t.isLt).1 = k0_pay3 (F := Ideal) (k0_pay13 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) (k0_pay12 (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  dsimp only
  exact (Pieces.out_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg (fun a => k0_pay3 (F := Ideal) a _) (Payload.pay1_eq _))

end Cert.KernelIdeal.Components

end
-- ==== Proof.Spec.lean ====
/-
  The specification both programs meet at the ideal instance, and the arithmetic facts shared by the two sides.

  For a query row `b` and a stored row `n` the SCORE is the inner product `s b n = ∑ k, x b k * v n k`. The result is
  the softmax-weighted mean of the stored rows,

      G b d = (∑ n, exp (s b n) * v n d) / (∑ n, exp (s b n)),

  written over the real parts of the entries so that it is a total function of the two argument arrays. A softmax
  is unchanged when every score is shifted by the same real number `μ` (numerator and denominator both gain the
  factor `exp (-μ)`), which is why neither side has to say WHICH shift it used: the reference shifts by the row
  maximum, the kernel by a running maximum that changes from tile to tile.
-/
import Idealize.ShloMosaic.PureOps.Ideal
import Idealize.ShloMosaic.Lib.ValueIdx

noncomputable section

namespace Cert.Spec

open Idealize.ShloMosaic Idealize.ShloMosaic.ValueIdx

/-- The queries' (and the result's) shape, and the stored patterns' shape. -/
abbrev SQ : Shape := ⟨2, ![2048, 256]⟩
abbrev SK : Shape := ⟨2, ![131072, 256]⟩

/-- Every entry of the array is a real number (neither infinity). -/
def IsReal {S : Shape} (a : S.Idx → EReal) : Prop := ∀ i, a i = ((a i).toReal : EReal)

/-- The score of stored row `n` for query row `b`: their inner product, over the real parts. -/
def score (x : SQ.Idx → EReal) (v : SK.Idx → EReal) (b : Fin 2048) (n : Fin 131072) : ℝ :=
  ∑ k : Fin 256, (x (ix2 b k)).toReal * (v (ix2 n k)).toReal

/-- The softmax denominator of row `b` (unshifted). -/
def den (x : SQ.Idx → EReal) (v : SK.Idx → EReal) (b : Fin 2048) : ℝ :=
  ∑ n : Fin 131072, Real.exp (score x v b n)

/-- The softmax numerator of row `b`, column `d` (unshifted). -/
def num (x : SQ.Idx → EReal) (v : SK.Idx → EReal) (b : Fin 2048) (d : Fin 256) : ℝ :=
  ∑ n : Fin 131072, Real.exp (score x v b n) * (v (ix2 n d)).toReal

/-- The result array: the softmax-weighted mean of the stored rows. -/
def G (x : SQ.Idx → EReal) (v : SK.Idx → EReal) : SQ.Idx → EReal :=
  fun i => ((num x v ⟨(i 0).val, idx2_lt0 i⟩ ⟨(i 1).val, idx2_lt1 i⟩ / den x v ⟨(i 0).val, idx2_lt0 i⟩ : ℝ) : EReal)

theorem G_ix2 (x : SQ.Idx → EReal) (v : SK.Idx → EReal) (b : Fin 2048) (d : Fin 256) :
    G x v (ix2 b d) = ((num x v b d / den x v b : ℝ) : EReal) := rfl

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries, the inner product computed on the extended reals is the real score. -/
theorem score_coe (x : SQ.Idx → EReal) (v : SK.Idx → EReal) (hx : IsReal x) (hv : IsReal v) (b : Fin 2048) (n : Fin 131072) :
    (∑ k : Fin 256, x (ix2 b k) * v (ix2 n k)) = ((score x v b n : ℝ) : EReal) := by
  unfold score
  rw [coe_sum]
  refine Finset.sum_congr rfl fun k _ => ?_
  rw [EReal.coe_mul, ← hx, ← hv]

/-- The denominator is positive: a sum of exponentials over a nonempty index set. -/
theorem den_pos (x : SQ.Idx → EReal) (v : SK.Idx → EReal) (b : Fin 2048) : 0 < den x v b :=
  Finset.sum_pos (fun n _ => Real.exp_pos _) ⟨⟨0, by decide⟩, Finset.mem_univ _⟩

/-! ## Stored rows by tile: row `2048 * j + t` is position `t` of tile `j` -/

/-- Stored row `2048 * j + t` (for `j < 64`; reduced modulo the extent so that it is total in `j`). -/
def key (j : ℕ) (t : Fin 2048) : Fin 131072 := ⟨(2048 * j + t.val) % 131072, Nat.mod_lt _ (by decide)⟩

theorem key_val (j : ℕ) (hj : j < 64) (t : Fin 2048) : (key j t).val = 2048 * j + t.val := by
  have := t.isLt
  show (2048 * j + t.val) % 131072 = _
  exact Nat.mod_eq_of_lt (by omega)

/-- A sum over all 131072 stored rows is the sum over the 64 tiles of the sums over each tile's 2048 rows. -/
theorem sum_by_tile {M : Type*} [AddCommMonoid M] (f : Fin 131072 → M) :
    ∑ n : Fin 131072, f n = ∑ j ∈ Finset.range 64, ∑ t : Fin 2048, f (key j t) := by
  rw [← Fin.sum_univ_eq_sum_range (fun j => ∑ t : Fin 2048, f (key j t)) 64]
  rw [← Equiv.sum_comp (finProdFinEquiv : Fin 64 × Fin 2048 ≃ Fin 131072) f, Fintype.sum_prod_type]
  refine Finset.sum_congr rfl fun j _ => Finset.sum_congr rfl fun t _ => congrArg f (Fin.ext ?_)
  rw [key_val j.val j.isLt t]
  show t.val + 2048 * j.val = _
  omega

end Cert.Spec

end
-- ==== Proof.Online.lean ====
/-
  The arithmetic of a softmax accumulated tile by tile.

  Fix one query row. Its scores come in tiles: `S j t` is the score of position `t` of tile `j`, and `W j t` the
  matching entry of the column being averaged. For a real shift `μ` and a number `k` of tiles put

      Lsum μ k = ∑ j < k, ∑ t, exp (S j t - μ)            Asum μ k = ∑ j < k, ∑ t, exp (S j t - μ) * W j t.

  Changing the shift multiplies both by the same factor: `exp (μ - μ') * Lsum μ k = Lsum μ' k` (`exp` turns the sum of
  exponents into a product), and likewise for `Asum`. That is the whole content of the running rescale: a state
  `(μ, Lsum μ k, Asum μ k)`, rescaled by `exp (μ - μ')` and increased by tile `k`'s terms at the new shift `μ'`, is the
  state `(μ', Lsum μ' (k+1), Asum μ' (k+1))`. The quotient `Asum μ k / Lsum μ k` does not depend on `μ`.

  On the extended reals these identities hold for REAL scores and shifts (a product does not distribute over a sum at
  the infinities), so each statement below coerces real quantities and the proofs push the coercion outward. The
  first tile starts from `(-∞, 0, 0)`: the rescale factor multiplies zeros there, so its value never matters.
-/
import Idealize.ShloMosaic.PureOps.Ideal
import proofs.«153064_j9929964388694_2_alg».proof.Proof.Spec

noncomputable section

namespace Cert.Online

open Idealize.ShloMosaic

variable {τ : Type} [Fintype τ]

/-- The shifted denominator over the first `k` tiles. -/
def Lsum (S : ℕ → τ → ℝ) (μ : ℝ) (k : ℕ) : ℝ := ∑ j ∈ Finset.range k, ∑ t : τ, Real.exp (S j t - μ)

/-- The shifted numerator over the first `k` tiles. -/
def Asum (S W : ℕ → τ → ℝ) (μ : ℝ) (k : ℕ) : ℝ := ∑ j ∈ Finset.range k, ∑ t : τ, Real.exp (S j t - μ) * W j t

theorem Lsum_succ (S : ℕ → τ → ℝ) (μ : ℝ) (k : ℕ) : Lsum S μ (k + 1) = Lsum S μ k + ∑ t : τ, Real.exp (S k t - μ) :=
  Finset.sum_range_succ _ _

theorem Asum_succ (S W : ℕ → τ → ℝ) (μ : ℝ) (k : ℕ) :
    Asum S W μ (k + 1) = Asum S W μ k + ∑ t : τ, Real.exp (S k t - μ) * W k t :=
  Finset.sum_range_succ _ _

/-- Changing the shift from `μ` to `μ'` multiplies the denominator by `exp (μ - μ')`. -/
theorem Lsum_shift (S : ℕ → τ → ℝ) (μ μ' : ℝ) (k : ℕ) : Real.exp (μ - μ') * Lsum S μ k = Lsum S μ' k := by
  unfold Lsum
  rw [Finset.mul_sum]
  refine Finset.sum_congr rfl fun j _ => ?_
  rw [Finset.mul_sum]
  refine Finset.sum_congr rfl fun t _ => ?_
  rw [← Real.exp_add]
  congr 1
  ring

/-- … and the numerator by the same factor. -/
theorem Asum_shift (S W : ℕ → τ → ℝ) (μ μ' : ℝ) (k : ℕ) : Real.exp (μ - μ') * Asum S W μ k = Asum S W μ' k := by
  unfold Asum
  rw [Finset.mul_sum]
  refine Finset.sum_congr rfl fun j _ => ?_
  rw [Finset.mul_sum]
  refine Finset.sum_congr rfl fun t _ => ?_
  rw [← mul_assoc, ← Real.exp_add]
  congr 2
  ring

/-- The denominator over at least one nonempty tile is positive. -/
theorem Lsum_pos [Nonempty τ] (S : ℕ → τ → ℝ) (μ : ℝ) (k : ℕ) (hk : 0 < k) : 0 < Lsum S μ k :=
  Finset.sum_pos (fun j _ => Finset.sum_pos (fun t _ => Real.exp_pos _) Finset.univ_nonempty) ⟨0, Finset.mem_range.mpr hk⟩

/-- So the quotient does not depend on the shift. -/
theorem quotient_shift (S W : ℕ → τ → ℝ) (μ : ℝ) (k : ℕ) : Asum S W μ k / Lsum S μ k = Asum S W 0 k / Lsum S 0 k := by
  rw [← Lsum_shift S μ 0 k, ← Asum_shift S W μ 0 k, mul_div_mul_left _ _ (Real.exp_pos _).ne']

/-- One tile's step of the denominator on the extended reals, from a real state. -/
theorem step_L (S : ℕ → τ → ℝ) (μ μ' : ℝ) (k : ℕ) :
    Ideal.exp ((μ : EReal) - (μ' : EReal)) * ((Lsum S μ k : ℝ) : EReal) + ∑ t : τ, Ideal.exp ((S k t : EReal) - (μ' : EReal))
      = ((Lsum S μ' (k + 1) : ℝ) : EReal) := by
  simp only [← EReal.coe_sub, Ideal.exp_coe, ← EReal.coe_mul]
  rw [← Cert.Spec.coe_sum, ← EReal.coe_add, Lsum_shift, Lsum_succ]

/-- One tile's step of the numerator on the extended reals, from a real state. -/
theorem step_A (S W : ℕ → τ → ℝ) (μ μ' : ℝ) (k : ℕ) :
    Ideal.exp ((μ : EReal) - (μ' : EReal)) * ((Asum S W μ k : ℝ) : EReal)
        + ∑ t : τ, Ideal.exp ((S k t : EReal) - (μ' : EReal)) * ((W k t : ℝ) : EReal)
      = ((Asum S W μ' (k + 1) : ℝ) : EReal) := by
  simp only [← EReal.coe_sub, Ideal.exp_coe, ← EReal.coe_mul]
  rw [← Cert.Spec.coe_sum, ← EReal.coe_add, Asum_shift, Asum_succ]

/-- The first tile, from the empty state: whatever the rescale factor `a`, it multiplies zero. -/
theorem first_L (S : ℕ → τ → ℝ) (a : EReal) (μ' : ℝ) :
    a * (0 : EReal) + ∑ t : τ, Ideal.exp ((S 0 t : EReal) - (μ' : EReal)) = ((Lsum S μ' 1 : ℝ) : EReal) := by
  simp only [← EReal.coe_sub, Ideal.exp_coe]
  rw [mul_zero, zero_add, ← Cert.Spec.coe_sum]
  unfold Lsum
  rw [Finset.sum_range_one]

theorem first_A (S W : ℕ → τ → ℝ) (a : EReal) (μ' : ℝ) :
    a * (0 : EReal) + ∑ t : τ, Ideal.exp ((S 0 t : EReal) - (μ' : EReal)) * ((W 0 t : ℝ) : EReal)
      = ((Asum S W μ' 1 : ℝ) : EReal) := by
  simp only [← EReal.coe_sub, Ideal.exp_coe, ← EReal.coe_mul]
  rw [mul_zero, zero_add, ← Cert.Spec.coe_sum]
  unfold Asum
  rw [Finset.sum_range_one]

/-- The maximum of a nonempty finite family of reals, folded from `-∞` on the extended reals, is a real number. -/
theorem fold_max_real {ι : Type} [Fintype ι] [Nonempty ι] (f : ι → ℝ) :
    ∃ M : ℝ, (Finset.univ : Finset ι).fold max (⊥ : EReal) (fun t => (f t : EReal)) = (M : EReal) := by
  classical
  have key : ∀ s : Finset ι, (s = ∅ ∧ s.fold max (⊥ : EReal) (fun t => (f t : EReal)) = ⊥)
      ∨ ∃ M : ℝ, s.fold max (⊥ : EReal) (fun t => (f t : EReal)) = (M : EReal) := by
    intro s
    induction s using Finset.induction_on with
    | empty => exact Or.inl ⟨rfl, rfl⟩
    | insert a s ha ih =>
      right
      rw [Finset.fold_insert ha]
      rcases ih with ⟨_, h0⟩ | ⟨M, hM⟩
      · exact ⟨f a, by rw [h0, max_bot_right]⟩
      · exact ⟨max (f a) M, by rw [hM]; exact (EReal.coe_strictMono.monotone.map_max).symm⟩
  rcases key Finset.univ with ⟨h0, _⟩ | h
  · exact absurd h0 (Finset.univ_nonempty.ne_empty)
  · exact h

/-- The quotient of two reals on the extended reals, the divisor not zero. -/
theorem div_coe_coe (A L : ℝ) (hL : L ≠ 0) : Ideal.div (A : EReal) (L : EReal) = ((A / L : ℝ) : EReal) := by
  rw [Ideal.div_coe hL, ← EReal.coe_mul, mul_one_div]

end Cert.Online

end
-- ==== Proof.Blocks.lean ====
/-
  Where a grid point's input blocks sit in the argument arrays.

  Grid point `t` is tile `t % 64` of the sweep for query block `t / 64`. Its query block is rows
  `1024 * (t / 64) + r` of the queries, and its stored tile is rows `2048 * (t % 64) + q` of the stored patterns —
  a block's coordinate is always block index × block size + the coordinate inside the block. The stored patterns
  reach the region through a change of float format, which is the identity on the extended reals.
-/
import proofs.«153064_j9929964388694_2_alg».proof.Proof.Gen.KernelIdeal.Frame
import proofs.«153064_j9929964388694_2_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The query row that row `r` of grid point `t`'s query block is. -/
def qrow (t : Fin cfg0.N) (r : Fin 1024) : Fin 2048 :=
  ⟨1024 * (t.val / 64) + r.val, by have h1 := t.isLt; have hN : cfg0.N = 128 := N_0; have h2 := r.isLt; omega⟩

/-- The stored row that row `q` of grid point `t`'s stored tile is. -/
def krow (t : Fin cfg0.N) (q : Fin 2048) : Fin 131072 :=
  ⟨2048 * (t.val % 64) + q.val, by have h2 := q.isLt; omega⟩

theorem krow_eq_key (t : Fin cfg0.N) (q : Fin 2048) : krow t q = Cert.Spec.key (t.val % 64) q :=
  Fin.ext (Cert.Spec.key_val (t.val % 64) (Nat.mod_lt _ (by decide)) q).symm

/-- The index maps of the two input windows, decided once over the grid: at point `t` the query block has block
    index `(t / 64, 0)` and the stored tile has block index `(t % 64, 0)`. -/
theorem idx0 : ∀ t : Fin cfg0.N, win0_0.index t (0 : Fin 2) = t.val / 64 ∧ win0_0.index t (1 : Fin 2) = 0 :=
  (by decide +kernel : ∀ t : Fin grid0.N, _)
theorem idx1 : ∀ t : Fin cfg0.N, win0_1.index t (0 : Fin 2) = t.val % 64 ∧ win0_1.index t (1 : Fin 2) = 0 :=
  (by decide +kernel : ∀ t : Fin grid0.N, _)

/-- The array the stored tiles are cut from is the stored patterns after a change of float format: on the extended
    reals, the stored patterns themselves. -/
theorem V_main_v0 (c : Dev nD) :
    (V m c main_v0 : S131072x256.Idx → EReal) = m ((c : Thread nD τ).loc main_arg1) := by
  dsimp only [Gen.V, Gen.hostOps0]
  after_results
  rfl

/-- Grid point `t`'s query block, entry `(r, k)`: the queries at row `qrow t r`, column `k`. -/
theorem iblk0_apply (c : Dev nD) (t : Fin cfg0.N) (r : Fin 1024) (k : Fin 256) :
    (iblk m c 0 t : Vec Ideal S1024x256 .f32) (ix2 r k) = m ((c : Thread nD τ).loc main_arg0) (ix2 (qrow t r) k) := by
  obtain ⟨e0, e1⟩ := idx0 t
  unfold iblk
  rw [View.read_apply]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * (t.val / 64) + r.val; rw [e0]; omega
  | ⟨1, _⟩ => show win0_0.index t (1 : Fin 2) * 256 + 1 * k.val = k.val; rw [e1]; omega

/-- Grid point `t`'s stored tile, entry `(q, k)`: the stored patterns at row `krow t q`, column `k`. -/
theorem iblk1_apply (c : Dev nD) (t : Fin cfg0.N) (q : Fin 2048) (k : Fin 256) :
    (iblk m c 1 t : Vec Ideal S2048x256 .bf16) (ix2 q k) = m ((c : Thread nD τ).loc main_arg1) (ix2 (krow t q) k) := by
  obtain ⟨e0, e1⟩ := idx1 t
  unfold iblk
  rw [View.read_apply]
  show (V m c main_v0 : S131072x256.Idx → EReal) (((cfg0.win 1).blk t).view.emb (ix2 q k)) = _
  rw [V_main_v0]
  refine congrArg _ (funext fun a => Fin.ext ?_)
  match a with
  | ⟨0, _⟩ => show win0_1.index t (0 : Fin 2) * 2048 + 1 * q.val = 2048 * (t.val % 64) + q.val; rw [e0]; omega
  | ⟨1, _⟩ => show win0_1.index t (1 : Fin 2) * 256 + 1 * k.val = k.val; rw [e1]; omega

end Cert.KernelIdeal.Blocks

end
-- ==== Proof.Invariant.lean ====
/-
  The invariant of the sweep, and the value of the output block.

  Fix a grid point `t`: it is tile `j = t % 64` of the sweep of query block `t / 64`. For row `r` of that block let
  `b = qrow t r` be the query row, `S j' q = score b (key j' q)` its score against position `q` of tile `j'`, and
  `W d j' q` entry `d` of that stored row. The claim, for every `r`: after the body at `t` there is a REAL `μ` with

      running maximum = μ,   running denominator = Lsum S μ (j + 1),   running numerator (column d) = Asum S (W d) μ (j + 1).

  At a first tile this holds because the reset values are `-∞`, `0`, `0` and the tile's maximum is real; at any later
  tile it follows from the same claim at `t - 1` (same query block, one tile fewer) by the rescaling identities. Which
  real `μ` is — it is the running maximum, but that is never needed — does not enter: at the last tile the output is
  `Asum S (W d) μ 64 / Lsum S μ 64`, which is the same for every `μ`, and at `μ = 0` it is the specification's quotient.
-/
import proofs.«153064_j9929964388694_2_alg».proof.Proof.Components
import proofs.«153064_j9929964388694_2_alg».proof.Proof.Online
import proofs.«153064_j9929964388694_2_alg».proof.Proof.Blocks

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Payload Cert.KernelIdeal.Blocks Cert.Spec Cert.Online

/-- The pattern `0x3F800000` denotes `1`, and `0xFF800000` denotes `-∞`. -/
theorem one_pat : Ideal.ofBits .f32 0x3F800000#32 = 1 := by
  simp [Ideal.ofBits, Ideal.ieee, -EReal.coe_mul] <;> norm_num
theorem ninf_pat : Ideal.ofBits .f32 0xFF800000#32 = ⊥ := by simp [Ideal.ofBits, Ideal.ieee]

/-! ## One row, one tile: on vectors whose entries are known to be real -/

section Row

variable (x0 : FVec Ideal S1024x256 .f32) (x1 : FVec Ideal S2048x256 .bf16) (r : Fin 1024)
variable (S : ℕ → Fin 2048 → ℝ) (W : Fin 256 → ℕ → Fin 2048 → ℝ) (j : ℕ)

/-- The tile's scores of row `r` are the real scores. -/
theorem scores_real (hsc : ∀ q : Fin 2048, (∑ k : Fin 256, (x0 (ix2 r k) : EReal) * (x1 (ix2 q k) : EReal)) = ((S j q : ℝ) : EReal))
    (q : Fin 2048) : k0_pay8 (F := Ideal) x0 x1 (ix2 r q) = ((S j q : ℝ) : EReal) := by
  rw [pay8_apply, hsc q, one_pat, mul_one]

/-- A LATER tile: from a real state of row `r` over `j` tiles to a real state over `j + 1`. -/
theorem step_row (ms ls : FVec Ideal S1024x1 .f32) (accs : FVec Ideal S1024x256 .f32)
    (hsc : ∀ q : Fin 2048, (∑ k : Fin 256, (x0 (ix2 r k) : EReal) * (x1 (ix2 q k) : EReal)) = ((S j q : ℝ) : EReal))
    (hw : ∀ (q : Fin 2048) (d : Fin 256), (x1 (ix2 q d) : EReal) = ((W d j q : ℝ) : EReal))
    (μ : ℝ) (hm : ms (ix2 r (0 : Fin 1)) = (μ : EReal)) (hl : ls (ix2 r (0 : Fin 1)) = ((Lsum S μ j : ℝ) : EReal))
    (ha : ∀ d : Fin 256, accs (ix2 r d) = ((Asum S (W d) μ j : ℝ) : EReal)) :
    ∃ μ' : ℝ, k0_pay9 (F := Ideal) x0 x1 ms (ix2 r (0 : Fin 1)) = (μ' : EReal)
      ∧ k0_pay12 (F := Ideal) x0 x1 ms ls (ix2 r (0 : Fin 1)) = ((Lsum S μ' (j + 1) : ℝ) : EReal)
      ∧ ∀ d : Fin 256, k0_pay13 (F := Ideal) x0 x1 ms accs (ix2 r d) = ((Asum S (W d) μ' (j + 1) : ℝ) : EReal) := by
  have h8 := scores_real x0 x1 r S j hsc
  obtain ⟨M, hM⟩ := fold_max_real (fun q : Fin 2048 => S j q)
  have hfun : (fun t : Fin 2048 => k0_pay8 (F := Ideal) x0 x1 (ix2 r t)) = fun t => ((S j t : ℝ) : EReal) := funext h8
  have h9 : k0_pay9 (F := Ideal) x0 x1 ms (ix2 r (0 : Fin 1)) = ((max μ M : ℝ) : EReal) := by
    rw [pay9_apply, hm, ninf_pat, hfun, hM]
    exact (EReal.coe_strictMono.monotone.map_max).symm
  refine ⟨max μ M, h9, ?_, fun d => ?_⟩
  · rw [pay12_apply, pay10_apply, h9, hm, hl]
    simp only [pay11_apply, h8, h9]
    exact step_L S μ (max μ M) j
  · rw [pay13_apply, pay10_apply, h9, hm, ha d]
    simp only [pay11_apply, h8, h9, hw]
    exact step_A S (W d) μ (max μ M) j

end Row

section FirstRow

variable (x0 : FVec Ideal S1024x256 .f32) (x1 : FVec Ideal S2048x256 .bf16) (r : Fin 1024)
variable (S : ℕ → Fin 2048 → ℝ) (W : Fin 256 → ℕ → Fin 2048 → ℝ)

/-- The FIRST tile: from the reset values to a real state of row `r` over one tile. -/
theorem first_row
    (hsc : ∀ q : Fin 2048, (∑ k : Fin 256, (x0 (ix2 r k) : EReal) * (x1 (ix2 q k) : EReal)) = ((S 0 q : ℝ) : EReal))
    (hw : ∀ (q : Fin 2048) (d : Fin 256), (x1 (ix2 q d) : EReal) = ((W d 0 q : ℝ) : EReal)) :
    ∃ μ' : ℝ, k0_pay9 (F := Ideal) x0 x1 (k0_pay4 (F := Ideal)) (ix2 r (0 : Fin 1)) = (μ' : EReal)
      ∧ k0_pay12 (F := Ideal) x0 x1 (k0_pay4 (F := Ideal)) (k0_pay5 (F := Ideal)) (ix2 r (0 : Fin 1)) = ((Lsum S μ' 1 : ℝ) : EReal)
      ∧ ∀ d : Fin 256, k0_pay13 (F := Ideal) x0 x1 (k0_pay4 (F := Ideal)) (k0_pay6 (F := Ideal)) (ix2 r d) = ((Asum S (W d) μ' 1 : ℝ) : EReal) := by
  have h8 := scores_real x0 x1 r S 0 hsc
  obtain ⟨M, hM⟩ := fold_max_real (fun q : Fin 2048 => S 0 q)
  have hfun : (fun t : Fin 2048 => k0_pay8 (F := Ideal) x0 x1 (ix2 r t)) = fun t => ((S 0 t : ℝ) : EReal) := funext h8
  have h9 : k0_pay9 (F := Ideal) x0 x1 (k0_pay4 (F := Ideal)) (ix2 r (0 : Fin 1)) = ((M : ℝ) : EReal) := by
    rw [pay9_apply, pay4_apply, ninf_pat, hfun, hM]
    exact max_eq_right bot_le
  refine ⟨M, h9, ?_, fun d => ?_⟩
  · rw [pay12_apply, pay5_apply, Ideal.ofBits_zero_f32]
    simp only [pay11_apply, h8, h9]
    exact first_L S _ M
  · rw [pay13_apply, pay6_apply, Ideal.ofBits_zero_f32]
    simp only [pay11_apply, h8, h9, hw]
    exact first_A S (W d) _ M

end FirstRow

/-! ## The sweep -/

variable (m : (ℓ : Loc nD τ sig) → Buf (Elt Ideal) ℓ)

/-- The two argument arrays on core `c`. -/
abbrev QA (c : Dev nD) : SQ.Idx → EReal := m ((c : Thread nD τ).loc main_arg0)
abbrev KA (c : Dev nD) : SK.Idx → EReal := m ((c : Thread nD τ).loc main_arg1)

/-- Query row `b`'s scores by tile, and column `d` of the stored rows by tile. -/
def Sc (c : Dev nD) (b : Fin 2048) : ℕ → Fin 2048 → ℝ := fun j q => score (QA m c) (KA m c) b (key j q)
def Wc (c : Dev nD) (d : Fin 256) : ℕ → Fin 2048 → ℝ := fun j q => (KA m c (ix2 (key j q) d)).toReal

/-- Row `r` of a query block against position `q` of a stored tile, the two blocks given by where their entries sit in
    the argument arrays: the real score. -/
theorem point_scores (c : Dev nD) (hX : IsReal (QA m c)) (hV : IsReal (KA m c)) (t : Fin cfg0.N) (r : Fin 1024) (q : Fin 2048)
    (x0 : FVec Ideal S1024x256 .f32) (x1 : FVec Ideal S2048x256 .bf16)
    (e0 : ∀ k : Fin 256, x0 (ix2 r k) = QA m c (ix2 (qrow t r) k))
    (e1 : ∀ k : Fin 256, x1 (ix2 q k) = KA m c (ix2 (krow t q) k)) :
    (∑ k : Fin 256, (x0 (ix2 r k) : EReal) * (x1 (ix2 q k) : EReal)) = ((Sc m c (qrow t r) (t.val % 64) q : ℝ) : EReal) := by
  have e : ∀ k : Fin 256, (x0 (ix2 r k) : EReal) * (x1 (ix2 q k) : EReal)
      = QA m c (ix2 (qrow t r) k) * KA m c (ix2 (key (t.val % 64) q) k) := fun k => by
    rw [e0 k, e1 k, krow_eq_key]
  rw [Finset.sum_congr rfl fun k _ => e k]
  exact score_coe (QA m c) (KA m c) hX hV (qrow t r) (key (t.val % 64) q)

/-- Entry `(q, d)` of a stored tile is real. -/
theorem point_values (c : Dev nD) (hV : IsReal (KA m c)) (t : Fin cfg0.N) (q : Fin 2048) (d : Fin 256)
    (x1 : FVec Ideal S2048x256 .bf16) (e1 : x1 (ix2 q d) = KA m c (ix2 (krow t q) d)) :
    (x1 (ix2 q d) : EReal) = ((Wc m c d (t.val % 64) q : ℝ) : EReal) := by
  rw [e1, krow_eq_key]
  exact hV _

/-- The state of row `r` after grid point `n`. -/
def RowState (c : Dev nD) (n : ℕ) (hn : n < cfg0.N) (r : Fin 1024) : Prop :=
  ∃ μ : ℝ, ((outsAt0 m c n hn).2.1 : Vec Ideal S1024x1 .f32) (ix2 r (0 : Fin 1)) = (μ : EReal)
    ∧ ((outsAt0 m c n hn).2.2.1 : Vec Ideal S1024x1 .f32) (ix2 r (0 : Fin 1)) = ((Lsum (Sc m c (qrow ⟨n, hn⟩ r)) μ (n % 64 + 1) : ℝ) : EReal)
    ∧ ∀ d : Fin 256, ((outsAt0 m c n hn).2.2.2 : Vec Ideal S1024x256 .f32) (ix2 r d) = ((Asum (Sc m c (qrow ⟨n, hn⟩ r)) (Wc m c d) μ (n % 64 + 1) : ℝ) : EReal)

/-- The query block does not change between a point that is not a first tile and the point before it. -/
theorem qrow_pred (n : ℕ) (hn : n + 1 < cfg0.N) (h0 : ¬(n + 1) % 64 = 0) (r : Fin 1024) :
    qrow ⟨n, Nat.lt_of_succ_lt hn⟩ r = qrow ⟨n + 1, hn⟩ r :=
  Fin.ext (by show 1024 * (n / 64) + r.val = 1024 * ((n + 1) / 64) + r.val; omega)

/-- THE INVARIANT: after every grid point, every row of the query block is in a real state over the tiles so far. -/
theorem rowState (c : Dev nD) (hX : IsReal (QA m c)) (hV : IsReal (KA m c)) :
    ∀ (n : ℕ) (hn : n < cfg0.N) (r : Fin 1024), RowState m c n hn r := by
  have hN : cfg0.N = 128 := N_0
  have first : ∀ (t : Fin cfg0.N), t.val % 64 = 0 → ∀ r, RowState m c t.val t.isLt r := by
    intro t h0 r
    have h1 : ¬t.val % 64 = 63 := by omega
    obtain ⟨μ', e9, e12, e13⟩ := first_row (iblk m c 0 t) (iblk m c 1 t) r (Sc m c (qrow t r)) (fun d => Wc m c d)
      (fun q => by have := point_scores m c hX hV t r q (iblk m c 0 t) (iblk m c 1 t) (fun k => iblk0_apply m c t r k) (fun k => iblk1_apply m c t q k); rw [h0] at this; exact this)
      (fun q d => by have := point_values m c hV t q d (iblk m c 1 t) (iblk1_apply m c t q d); rw [h0] at this; exact this)
    refine ⟨μ', ?_, ?_, fun d => ?_⟩
    · rw [Components.m_first m c t h0 h1]; exact e9
    · rw [Components.l_first m c t h0 h1, h0]; exact e12
    · rw [Components.a_first m c t h0 h1, h0]; exact e13 d
  intro n
  induction n with
  | zero => intro hn r; exact first ⟨0, hn⟩ rfl r
  | succ n ih =>
    intro hn r
    by_cases h0 : (n + 1) % 64 = 0
    · exact first ⟨n + 1, hn⟩ h0 r
    · obtain ⟨μ, em, el, ea⟩ := ih (Nat.lt_of_succ_lt hn) r
      have hj : n % 64 + 1 = (n + 1) % 64 := by omega
      rw [qrow_pred n hn h0 r, hj] at el
      have ea' : ∀ d : Fin 256, ((outsAt0 m c n (Nat.lt_of_succ_lt hn)).2.2.2 : Vec Ideal S1024x256 .f32) (ix2 r d)
          = ((Asum (Sc m c (qrow ⟨n + 1, hn⟩ r)) (Wc m c d) μ ((n + 1) % 64) : ℝ) : EReal) := fun d => by
        have := ea d; rw [qrow_pred n hn h0 r, hj] at this; exact this
      obtain ⟨μ', e9, e12, e13⟩ := step_row (iblk m c 0 ⟨n + 1, hn⟩) (iblk m c 1 ⟨n + 1, hn⟩) r
        (Sc m c (qrow ⟨n + 1, hn⟩ r)) (fun d => Wc m c d) ((n + 1) % 64)
        ((outsAt0 m c n (Nat.lt_of_succ_lt hn)).2.1) ((outsAt0 m c n (Nat.lt_of_succ_lt hn)).2.2.1) ((outsAt0 m c n (Nat.lt_of_succ_lt hn)).2.2.2)
        (fun q => point_scores m c hX hV ⟨n + 1, hn⟩ r q (iblk m c 0 ⟨n + 1, hn⟩) (iblk m c 1 ⟨n + 1, hn⟩) (fun k => iblk0_apply m c ⟨n + 1, hn⟩ r k) (fun k => iblk1_apply m c ⟨n + 1, hn⟩ q k))
        (fun q d => point_values m c hV ⟨n + 1, hn⟩ q d (iblk m c 1 ⟨n + 1, hn⟩) (iblk1_apply m c ⟨n + 1, hn⟩ q d)) μ em el ea'
      by_cases h1 : (n + 1) % 64 = 63
      · refine ⟨μ', ?_, ?_, fun d => ?_⟩
        · rw [Components.m_last m c ⟨n + 1, hn⟩ h0 h1]; exact e9
        · rw [Components.l_last m c ⟨n + 1, hn⟩ h0 h1]; exact e12
        · rw [Components.a_last m c ⟨n + 1, hn⟩ h0 h1]; exact e13 d
      · refine ⟨μ', ?_, ?_, fun d => ?_⟩
        · rw [Components.m_mid m c ⟨n + 1, hn⟩ h0 h1]; exact e9
        · rw [Components.l_mid m c ⟨n + 1, hn⟩ h0 h1]; exact e12
        · rw [Components.a_mid m c ⟨n + 1, hn⟩ h0 h1]; exact e13 d

/-! ## The output block -/

/-- The specification's denominator and numerator of query row `b`, by tile, at shift `0`. -/
theorem den_eq (c : Dev nD) (b : Fin 2048) : den (QA m c) (KA m c) b = Lsum (Sc m c b) 0 64 := by
  unfold den Lsum Sc
  rw [sum_by_tile]
  simp only [sub_zero]
theorem num_eq (c : Dev nD) (b : Fin 2048) (d : Fin 256) : num (QA m c) (KA m c) b d = Asum (Sc m c b) (Wc m c d) 0 64 := by
  unfold num Asum Sc Wc
  rw [sum_by_tile]
  simp only [sub_zero]

/-- At a last tile the output block holds, at `(r, d)`, the specification at query row `qrow t r`, column `d`. -/
theorem out_at_last (c : Dev nD) (hX : IsReal (QA m c)) (hV : IsReal (KA m c)) (t : Fin cfg0.N) (h63 : t.val % 64 = 63)
    (r : Fin 1024) (d : Fin 256) :
    ((outsAt0 m c t.val t.isLt).1 : Vec Ideal S1024x256 .f32) (ix2 r d) = G (QA m c) (KA m c) (ix2 (qrow t r) d) := by
  have h0 : ¬t.val % 64 = 0 := by omega
  obtain ⟨μ, -, el, ea⟩ := rowState m c hX hV t.val t.isLt r
  have hpos : 0 < Lsum (Sc m c (qrow t r)) μ 64 := Lsum_pos _ _ _ (by decide)
  have eo : ((outsAt0 m c t.val t.isLt).1 : Vec Ideal S1024x256 .f32) (ix2 r d)
      = Ideal.div (((outsAt0 m c t.val t.isLt).2.2.2 : Vec Ideal S1024x256 .f32) (ix2 r d))
          (((outsAt0 m c t.val t.isLt).2.2.1 : Vec Ideal S1024x1 .f32) (ix2 r (0 : Fin 1))) := by
    rw [Components.o_last m c t h0 h63, Components.a_last m c t h0 h63, Components.l_last m c t h0 h63]
    exact pay3_apply _ _ r d
  rw [eo, el, ea d, h63, G_ix2, den_eq, num_eq]
  show Ideal.div ((Asum (Sc m c (qrow t r)) (Wc m c d) μ 64 : ℝ) : EReal) ((Lsum (Sc m c (qrow t r)) μ 64 : ℝ) : EReal) = _
  rw [div_coe_coe _ _ hpos.ne', quotient_shift]

end Cert.KernelIdeal.Invariant

end
-- ==== Proof.Cover.lean ====
/-
  From the output blocks to the output array.

  The output is written back block by block: grid point `t` holds rows `1024 * (t / 64) + r` of the result, and
  its block is written back only at the last tile of a sweep, `t % 64 = 63` — that is at `t = 63` (rows 0 to 1023)
  and at `t = 127` (rows 1024 to 2047). These two blocks tile the 2048 rows: row `i` lies in the block of the point
  `64 * (i / 1024) + 63`. So if what each such point writes back is its block of ONE array, that array is the result.
-/
import proofs.«153064_j9929964388694_2_alg».proof.Proof.Gen.KernelIdeal.Value
import proofs.«153064_j9929964388694_2_alg».proof.Proof.Blocks

noncomputable section

open Idealize.ShloMosaic Idealize.ShloMosaic.TcCoe Idealize.SL.Sem Idealize.ShloMosaic.ValueIdx

namespace Cert.KernelIdeal.Cover

open Cert.KernelIdeal Cert.KernelIdeal.Gen

variable (m : (ℓ : Loc nD τ sig) → Buf (Elt Ideal) ℓ)

/-- The output window's index map, decided once over the grid: at point `t` its block index is `(t / 64, 0)`. -/
theorem idx2 : ∀ t : Fin cfg0.N, win0_2.index t (0 : Fin 2) = t.val / 64 ∧ win0_2.index t (1 : Fin 2) = 0 :=
  (by decide +kernel : ∀ t : Fin grid0.N, _)

/-- An index of the result array is in point `t`'s block iff each coordinate is in the block's range on its axis. -/
theorem mem_blk (t : Fin cfg0.N) (i : S2048x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v1).slice (win0_2.rect t)).set ↔ _
  rw [View.set_slice_whole, Rect.mem_set_unit]
  exact Iff.rfl

/-- If, at every point that writes the output back, the block written is that point's block of one array `Gk`, the
    result array ends holding `Gk`. -/
theorem final_of (c : Dev nD) (Gk : S2048x256.Idx → EReal)
    (hout : ∀ t : Fin cfg0.N, t.val % 64 = 63 → ∀ (r : Fin 1024) (d : Fin 256),
      ((outsAt0 m c t.val t.isLt).1 : Vec Ideal S1024x256 .f32) (ix2 r d) = Gk (ix2 (Blocks.qrow t r) d)) :
    (dats m 0 c).arrAt 2 cfg0.N = Gk := by
  refine (dats m 0 c).arrAt_eq_of_cover 2 Gk (fun t hf => ?_) (fun i => ?_)
  · have h63 : t.val % 64 = 63 := (flush0_2 t).mp hf
    obtain ⟨e0, e1⟩ := idx2 t
    rw [Value.flushed2]
    funext j
    obtain ⟨r, d, rfl⟩ : ∃ (r : Fin 1024) (d : Fin 256), j = ix2 r d := ⟨j 0, j 1, eq_ix2 j⟩
    rw [View.read_apply]
    show ((outsAt0 m c t.val t.isLt).1 : Vec Ideal S1024x256 .f32) (ix2 r d) = Gk (((cfg0.win 2).blk t).view.emb (ix2 r d))
    rw [hout t h63 r d]
    refine congrArg Gk (funext fun a => Fin.ext ?_)
    match a with
    | ⟨0, _⟩ => show 1024 * (t.val / 64) + r.val = win0_2.index t (0 : Fin 2) * 1024 + 1 * r.val; rw [e0]; omega
    | ⟨1, _⟩ => show d.val = win0_2.index t (1 : Fin 2) * 256 + 1 * d.val; rw [e1]; omega
  · have hN : cfg0.N = 128 := N_0
    have hi0 : (i 0).val < 2048 := (i 0).isLt
    have hi1 : (i 1).val < 256 := (i 1).isLt
    have ht : 64 * ((i 0).val / 1024) + 63 < cfg0.N := by omega
    obtain ⟨e0, e1⟩ := idx2 ⟨64 * ((i 0).val / 1024) + 63, ht⟩
    refine ⟨⟨64 * ((i 0).val / 1024) + 63, ht⟩, (flush0_2 _).mpr (by show (64 * ((i 0).val / 1024) + 63) % 64 = 63; omega), ?_⟩
    rw [mem_blk]
    intro a
    match a with
    | ⟨0, _⟩ =>
      show win0_2.index ⟨64 * ((i 0).val / 1024) + 63, ht⟩ (0 : Fin 2) * 1024 ≤ (i 0).val
        ∧ (i 0).val < win0_2.index ⟨64 * ((i 0).val / 1024) + 63, ht⟩ (0 : Fin 2) * 1024 + 1024
      rw [e0]
      show (64 * ((i 0).val / 1024) + 63) / 64 * 1024 ≤ (i 0).val ∧ (i 0).val < (64 * ((i 0).val / 1024) + 63) / 64 * 1024 + 1024
      omega
    | ⟨1, _⟩ =>
      show win0_2.index ⟨64 * ((i 0).val / 1024) + 63, ht⟩ (1 : Fin 2) * 256 ≤ (i 1).val
        ∧ (i 1).val < win0_2.index ⟨64 * ((i 0).val / 1024) + 63, ht⟩ (1 : Fin 2) * 256 + 256
      rw [e1]
      omega

end Cert.KernelIdeal.Cover

end
-- ==== Proof.KValue.lean ====
/-
  The kernel's run, read: the result array ends at the specification.

  The output window is written back only after the last tile of each sweep; what it writes there is, row by row, the
  specification at the query rows of its block, and the two blocks written tile the 2048 query rows. So the result
  array after the run is the specification of the two argument arrays, which the run leaves as they were.
-/
import proofs.«153064_j9929964388694_2_alg».proof.Proof.Gen.KernelIdeal.Value
import proofs.«153064_j9929964388694_2_alg».proof.Proof.Invariant
import proofs.«153064_j9929964388694_2_alg».proof.Proof.Cover

noncomputable section

open Idealize.ShloMosaic Idealize.ShloMosaic.TcCoe Idealize.SL.Sem

namespace Cert.KernelIdeal.KValue

open Cert.KernelIdeal Cert.KernelIdeal.Gen Cert.KernelIdeal.Invariant Cert.Spec

variable (m : (ℓ : Loc nD τ sig) → Buf (Elt Ideal) ℓ) (ρ : Dev nD → PrngReg)

/-- The result array after the run is the specification of the argument arrays. -/
theorem final (c : Dev nD) (hX : IsReal (QA m c)) (hV : IsReal (KA m c)) :
    (dats m 0 c).arrAt 2 cfg0.N = G (QA m c) (KA m c) :=
  Cover.final_of m c (G (QA m c) (KA m c)) (fun t h63 r d => out_at_last m c hX hV t h63 r d)

/-- Every weakly fair execution ends with the result array at the specification and the arguments unchanged. -/
theorem run (hreal : ∀ c : Dev nD, IsReal (QA m c) ∧ IsReal (KA m c)) :
    θ_run defs (onTc (τ := τ) (main (F := Ideal))) ⟨m, fun _ => 0, ρ⟩ fun r => ∀ c : Dev nD,
      r.2.mem ((c : Thread nD τ).loc main_v1) = G (QA m c) (KA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Cert.KernelIdeal.Value.run_blocks m ρ)

end Cert.KernelIdeal.KValue

end
-- ==== Proof.RefValue.lean ====
/-
  The reference computes the specification.

  Row `b` of the reference is a softmax over the 131072 scores `s n = ∑ k, x b k * v n k` (scaled by the constant 1),
  computed the stable way: subtract the row maximum `μ`, exponentiate, divide by the sum of the exponentials, and
  contract the weights with the stored rows. With real entries every score is real, so the maximum `μ` of the
  (nonempty) row, taken from `-∞`, is a real number too; which real it is does not matter, because

      ∑ n, exp (s n - μ) / (∑ n', exp (s n' - μ)) * w n = (∑ n, exp (s n) * w n) / (∑ n, exp (s n))

  for every real `μ`: numerator and denominator both carry the factor `exp (-μ) ≠ 0`. All the arithmetic is done on
  real numbers and coerced; that is where the finiteness of the entries is used (on the extended reals a product does
  not distribute over a sum that meets an infinity).
-/
import proofs.«153064_j9929964388694_2_alg».proof.Proof.Gen.ReferenceIdeal.Read
import proofs.«153064_j9929964388694_2_alg».proof.Proof.Spec

noncomputable section

namespace Cert.RefValue

open Idealize.ShloMosaic Idealize.ShloMosaic.ValueIdx Cert.ReferenceIdeal Cert.ReferenceIdeal.Gen Cert.ReferenceIdeal.Read Cert.Spec

/-! ## Arithmetic -/

/-- A softmax-weighted mean does not depend on the real number subtracted from every score. -/
theorem softmax_shift {ι : Type*} [Fintype ι] (s w : ι → ℝ) (μ : ℝ) :
    ∑ n, Real.exp (s n - μ) / (∑ n', Real.exp (s n' - μ)) * w n = (∑ n, Real.exp (s n) * w n) / ∑ n, Real.exp (s n) := by
  have hE : Real.exp (-μ) ≠ 0 := (Real.exp_pos _).ne'
  have hs : ∀ n, Real.exp (s n - μ) = Real.exp (s n) * Real.exp (-μ) := fun n => by rw [sub_eq_add_neg, Real.exp_add]
  have hD : (∑ n', Real.exp (s n' - μ)) = (∑ n', Real.exp (s n')) * Real.exp (-μ) := by
    rw [Finset.sum_mul]; exact Finset.sum_congr rfl fun n _ => hs n
  rw [hD, Finset.sum_div]
  refine Finset.sum_congr rfl fun n _ => ?_
  rw [hs n, mul_div_mul_right _ _ hE, div_mul_eq_mul_div]

/-- The maximum, taken from `-∞`, of a nonempty finite family of real numbers is a real number. -/
theorem fold_max_real {ι : Type*} (op : EReal → EReal → EReal) [Std.Commutative op] [Std.Associative op]
    (hop : ∀ a b, op a b = max a b) (f : ι → EReal) (hf : ∀ i, ∃ r : ℝ, f i = (r : EReal)) {s : Finset ι} (hs : s.Nonempty) :
    ∃ μ : ℝ, s.fold op ⊥ f = (μ : EReal) := by
  induction hs using Finset.Nonempty.cons_induction with
  | singleton a =>
    obtain ⟨r, hr⟩ := hf a
    exact ⟨r, by rw [Finset.fold_singleton, hop, hr]; exact max_eq_left bot_le⟩
  | cons a s ha hs ih =>
    obtain ⟨μ, hμ⟩ := ih
    obtain ⟨r, hr⟩ := hf a
    rcases le_total r μ with h | h
    · exact ⟨μ, by rw [Finset.fold_cons, hop, hμ, hr]; exact max_eq_right (EReal.coe_le_coe_iff.2 h)⟩
    · exact ⟨r, by rw [Finset.fold_cons, hop, hμ, hr]; exact max_eq_left (EReal.coe_le_coe_iff.2 h)⟩

/-- The pattern `0x3F800000` denotes `1`, and `0xFF800000` denotes `-∞`. -/
theorem one_pat : Ideal.ofBits .f32 0x3F800000#32 = 1 := by
  simp [Ideal.ofBits, Ideal.ieee, -EReal.coe_mul] <;> norm_num
theorem ninf_pat : Ideal.ofBits .f32 0xFF800000#32 = ⊥ := by simp [Ideal.ofBits, Ideal.ieee]

/-! ## The stages of the reference, read at an index -/

variable (x : FVec Ideal S2048x256 .f32) (v : FVec Ideal S131072x256 .f32)

/-- The scaled scores: `1 * (x · vᵀ)`, the real score. -/
theorem scores_apply (hx : IsReal x) (hv : IsReal v) (b : Fin 2048) (n : Fin 131072) :
    val_main_v2 (F := Ideal) x v (ix2 b n) = ((score x v b n : ℝ) : EReal) := by
  have el : ∀ k : Fin 256, lidx_main_v0 (ix2 b n) k = ix2 b k := fun k =>
    funext fun a => Fin.ext (by match a with | ⟨0, _⟩ => rfl | ⟨1, _⟩ => rfl)
  have er : ∀ k : Fin 256, ridx_main_v0 (ix2 b n) k = ix2 n k := fun k =>
    funext fun a => Fin.ext (by match a with | ⟨0, _⟩ => rfl | ⟨1, _⟩ => rfl)
  rw [val_main_v2_apply, val_main_v1_apply, val_main_cst_apply, val_main_v0_apply]
  simp only [el, er, Ideal.mulf_def, Ideal.ofBits_def, one_pat, one_mul]
  exact score_coe x v hx hv b n

/-- Every scaled score is a real number. -/
theorem scores_real (hx : IsReal x) (hv : IsReal v) (i : S2048x131072.Idx) :
    ∃ r : ℝ, val_main_v2 (F := Ideal) x v i = (r : EReal) := by
  obtain ⟨b, n, rfl⟩ : ∃ (b : Fin 2048) (n : Fin 131072), i = ix2 b n := ⟨i 0, i 1, eq_ix2 i⟩
  exact ⟨_, scores_apply x v hx hv b n⟩

/-- The real number the reference subtracts from the scores of row `b` (their maximum). -/
def shift (b : Fin 2048) : ℝ := (val_main_v5 (F := Ideal) x v (ix1 b)).toReal

/-- The row maximum is that real number. -/
theorem rowmax_apply (hx : IsReal x) (hv : IsReal v) (b : Fin 2048) :
    val_main_v5 (F := Ideal) x v (ix1 b) = ((shift x v b : ℝ) : EReal) := by
  have hred : S2048x131072.Reduces [1] S2048 := by decide
  have hne : (Finset.univ : Finset (Fin (S2048x131072.size 1))).Nonempty := ⟨⟨0, by decide⟩, Finset.mem_univ _⟩
  obtain ⟨μ, hμ⟩ := fold_max_real (FloatOps.maximumf (F := Ideal) (φ := .f32)) (fun _ _ => rfl)
    (val_main_v2 (F := Ideal) x v ∘ hred.lift (ix1 b)) (fun k => scores_real x v hx hv _) hne
  have h5 : val_main_v5 (F := Ideal) x v (ix1 b) = (μ : EReal) := by
    rw [val_main_v5_apply, val_main_v4_apply, val_main_cst_1_apply]
    unfold val_main_v3
    rw [Host.reduce_eq_fold_single FloatOps.maximumf _ _ reducesTo_S2048x131072_S2048_d1 hred h_S_, val_main_cst_0_apply]
    simp only [Ideal.ofBits_def, ninf_pat]
    rw [hμ]
    exact max_eq_right bot_le
  unfold shift
  rw [h5, EReal.toReal_coe]

/-- The exponentials of the shifted scores. -/
theorem exps_apply (hx : IsReal x) (hv : IsReal v) (b : Fin 2048) (n : Fin 131072) :
    val_main_v9 (F := Ideal) x v (ix2 b n) = ((Real.exp (score x v b n - shift x v b) : ℝ) : EReal) := by
  have e : idx_main_v6 (idx_main_v7 (ix2 b n)) = ix1 b := funext fun a => Fin.ext (by match a with | ⟨0, _⟩ => rfl)
  rw [val_main_v9_apply, val_main_v8_apply, val_main_v7_apply, val_main_v6_apply, e, scores_apply x v hx hv,
    rowmax_apply x v hx hv]
  simp only [Ideal.subf_def, Ideal.hostUnary_exp_def]
  rw [← EReal.coe_sub, Ideal.exp_coe]

/-- Their sum over the row. -/
theorem sums_apply (hx : IsReal x) (hv : IsReal v) (b : Fin 2048) :
    val_main_v10 (F := Ideal) x v (ix1 b) = ((∑ n : Fin 131072, Real.exp (score x v b n - shift x v b) : ℝ) : EReal) := by
  have e : ∀ k : Fin 131072, idx_main_v10 (ix1 b) k = ix2 b k := fun k =>
    funext fun a => Fin.ext (by match a with | ⟨0, _⟩ => rfl | ⟨1, _⟩ => rfl)
  rw [val_main_v10_apply, val_main_cst_2_apply]
  simp only [e, exps_apply x v hx hv, Ideal.ofBits_def, Ideal.ofBits_zero_f32, zero_add]
  rw [coe_sum]

/-- The softmax weights. -/
theorem weights_apply (hx : IsReal x) (hv : IsReal v) (b : Fin 2048) (n : Fin 131072) :
    val_main_v13 (F := Ideal) x v (ix2 b n)
      = ((Real.exp (score x v b n - shift x v b) / (∑ n' : Fin 131072, Real.exp (score x v b n' - shift x v b)) : ℝ) : EReal) := by
  have e : idx_main_v11 (idx_main_v12 (ix2 b n)) = ix1 b := funext fun a => Fin.ext (by match a with | ⟨0, _⟩ => rfl)
  have hL : (∑ n' : Fin 131072, Real.exp (score x v b n' - shift x v b)) ≠ 0 :=
    (Finset.sum_pos (fun n _ => Real.exp_pos _) ⟨⟨0, by decide⟩, Finset.mem_univ _⟩).ne'
  rw [val_main_v13_apply, val_main_v12_apply, val_main_v11_apply, e, exps_apply x v hx hv, sums_apply x v hx hv]
  simp only [Ideal.hostDivf_def]
  rw [Ideal.div_coe hL, ← EReal.coe_mul, mul_one_div]

/-- The reference's result is the specification. -/
theorem result_eq (hx : IsReal x) (hv : IsReal v) : val_main_v14 (F := Ideal) x v = G x v := by
  funext i
  obtain ⟨b, d, rfl⟩ : ∃ (b : Fin 2048) (d : Fin 256), i = ix2 b d := ⟨i 0, i 1, eq_ix2 i⟩
  have el : ∀ k : Fin 131072, lidx_main_v14 (ix2 b d) k = ix2 b k := fun k =>
    funext fun a => Fin.ext (by match a with | ⟨0, _⟩ => rfl | ⟨1, _⟩ => rfl)
  have er : ∀ k : Fin 131072, ridx_main_v14 (ix2 b d) k = ix2 k d := fun k =>
    funext fun a => Fin.ext (by match a with | ⟨0, _⟩ => rfl | ⟨1, _⟩ => rfl)
  rw [val_main_v14_apply, G_ix2]
  simp only [el, er, weights_apply x v hx hv]
  have hk : ∀ k : Fin 131072,
      ((Real.exp (score x v b k - shift x v b) / (∑ n' : Fin 131072, Real.exp (score x v b n' - shift x v b)) : ℝ) : EReal) * v (ix2 k d)
        = ((Real.exp (score x v b k - shift x v b) / (∑ n' : Fin 131072, Real.exp (score x v b n' - shift x v b))
            * (v (ix2 k d)).toReal : ℝ) : EReal) := fun k => by
    rw [EReal.coe_mul, ← hv (ix2 k d)]
  simp only [hk]
  rw [← coe_sum, softmax_shift (score x v b) (fun n => (v (ix2 n d)).toReal) (shift x v b)]
  rfl

end Cert.RefValue

end
-- ==== Proof.Finite.lean ====
/-
  Finiteness of the two argument arrays.

  The precondition computes, for each argument array `a`, the conjunction over every index `i` of the comparison
  `|a i| < +∞`, and the conjunction of the two results; it is assumed to be true. So every comparison is true. On the
  extended reals `|a| = max a (-a)`, and `max a (-a) < ⊤` excludes both `a = ⊤` and `a = ⊥` (whose negation is `⊤`):
  what is left is a real number, which is then equal to the coercion of its own real part.
-/
import proofs.«153064_j9929964388694_2_alg».proof.Pre_finite_inputs
import proofs.«153064_j9929964388694_2_alg».proof.Proof.Spec
import Idealize.ShloMosaic.Lib.ReduceAll

noncomputable section

namespace Cert.Finite

open Idealize.ShloMosaic

/-- The pattern `0x7F800000` denotes `+∞`. -/
theorem ofBits_inf : Ideal.ofBits .f32 0x7F800000#32 = ⊤ := by simp [Ideal.ofBits, Ideal.ieee]

/-- An extended real whose absolute value `max a (-a)` is below `⊤` is the coercion of its real part. -/
theorem eq_coe_toReal_of_abs_lt_top (a : EReal) (h : max a (-a) < ⊤) : a = ((a.toReal : ℝ) : EReal) := by
  induction a using EReal.rec with
  | bot => simp at h
  | top => simp at h
  | coe r => rfl

/-- One element: if the comparison `|a| < +∞` answered true, `a` is real. -/
theorem real_of_cmp (a : EReal)
    (h : FloatOps.cmpf (F := Ideal) (φ := .f32) .olt (FloatOps.hostAbsf (F := Ideal) (φ := .f32) a)
      (FloatOps.ofBits (F := Ideal) .f32 0x7F800000#32) = 1#1) : a = ((a.toReal : ℝ) : EReal) := by
  refine eq_coe_toReal_of_abs_lt_top a ?_
  change Ideal.cmp .olt (max a (-a)) (Ideal.ofBits .f32 0x7F800000#32) = 1#1 at h
  rw [ofBits_inf] at h
  unfold Ideal.cmp at h
  by_contra hn
  simp [hn] at h

instance : Subsingleton Cert.Pre_finite_inputs.S_.Idx := ⟨fun a b => funext fun d => d.elim0⟩

theorem isReal_of_pre [Cert.Pre_finite_inputs.Facts] (x : FVec Ideal Cert.Pre_finite_inputs.S2048x256 .f32)
    (v : FVec Ideal Cert.Pre_finite_inputs.S131072x256 .f32)
    (h : Cert.Pre_finite_inputs.fn (F := Ideal) x v = fun _ => 1#1) : Cert.Spec.IsReal x ∧ Cert.Spec.IsReal v := by
  have h0 := congrFun h ValueIdx.ix0
  dsimp only [Cert.Pre_finite_inputs.fn] at h0
  obtain ⟨hx, hv⟩ := IntOp.andi_eq_one.1 h0
  refine ⟨fun i => ?_, fun i => ?_⟩
  · exact real_of_cmp (x i) (Host.reduce_andi_all _ _ _ _ _ hx i)
  · exact real_of_cmp (v i) (Host.reduce_andi_all _ _ _ _ _ hv i)

end Cert.Finite

end
-- ==== Proof.lean ====
/-
  A single-pass softmax retrieval against its textbook form, on the extended reals.

  The kernel sweeps the 131072 stored rows in 64 tiles of 2048 for each block of 1024 query rows, keeping per query row
  a running maximum, a running sum of exponentials and a running weighted sum, each rescaled whenever the maximum
  grows, and divides at the end. The reference subtracts each row's maximum, exponentiates, normalizes and contracts.
  With finite inputs both compute, for query row `b` and column `d`,

      (∑ n, exp (s b n) * v n d) / (∑ n, exp (s b n)),      s b n = ∑ k, x b k * v n k,

  because a softmax does not change when one real number is subtracted from all its scores: the reference subtracts
  the row maximum, the kernel a maximum that changes from tile to tile, and the factor `exp (μ - μ')` it applies on
  each change is exactly what moves the sums from shift `μ` to shift `μ'`. Finiteness is used: these identities move a
  factor across a sum, which fails at the infinities of the extended reals.

  The three frame claims are the programs' runs with the results dropped; the idealization rewrote nothing, so what it
  preserves is trivial; the value claim sets the two runs side by side at the one specification.
-/
import proofs.«153064_j9929964388694_2_alg».proof.Defs
import proofs.«153064_j9929964388694_2_alg».proof.Proof.Gen.Kernel
import proofs.«153064_j9929964388694_2_alg».proof.Proof.Gen.Kernel.Skeleton
import proofs.«153064_j9929964388694_2_alg».proof.Proof.Gen.Kernel.Launch
import proofs.«153064_j9929964388694_2_alg».proof.Proof.Gen.Kernel.Points
import proofs.«153064_j9929964388694_2_alg».proof.Proof.Gen.Kernel.Frame
import proofs.«153064_j9929964388694_2_alg».proof.Proof.Gen.KernelIdeal
import proofs.«153064_j9929964388694_2_alg».proof.Proof.Gen.KernelIdeal.Skeleton
import proofs.«153064_j9929964388694_2_alg».proof.Proof.Gen.KernelIdeal.Launch
import proofs.«153064_j9929964388694_2_alg».proof.Proof.Gen.KernelIdeal.Points
import proofs.«153064_j9929964388694_2_alg».proof.Proof.Gen.KernelIdeal.Frame
import proofs.«153064_j9929964388694_2_alg».proof.Proof.Gen.ReferenceIdeal
import proofs.«153064_j9929964388694_2_alg».proof.Proof.Gen.Pre_finite_inputs
import proofs.«153064_j9929964388694_2_alg».proof.Proof.Gen.KernelIdeal.Value
import proofs.«153064_j9929964388694_2_alg».proof.Proof.Gen.ReferenceIdeal.Run
import proofs.«153064_j9929964388694_2_alg».proof.Proof.Gen.ReferenceIdeal.Read
import proofs.«153064_j9929964388694_2_alg».proof.Proof.KValue
import proofs.«153064_j9929964388694_2_alg».proof.Proof.RefValue
import proofs.«153064_j9929964388694_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- With finite inputs the kernel's result array and the reference's are the same softmax-weighted mean of the stored
    rows: the kernel's by the invariant of its sweep, the reference's stage by stage, from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD,
      Cert.Spec.IsReal (Cert.KernelIdeal.Invariant.QA m c) ∧ Cert.Spec.IsReal (Cert.KernelIdeal.Invariant.KA m c) :=
    fun c => Cert.Finite.isReal_of_pre _ _ (hpre c)
  refine ⟨fun c => Cert.Spec.G (Cert.KernelIdeal.Invariant.QA m c) (Cert.KernelIdeal.Invariant.KA m c),
    Cert.KernelIdeal.KValue.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2]
  exact Cert.RefValue.result_eq _ _ (hreal c).1 (hreal c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
